-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8x65536x1 : Shape := ⟨4, ![64, 8, 65536, 1]⟩
abbrev S_ : Shape := ⟨0, ![]⟩

class Facts : Prop where
  bcast_S_S64x8x65536x1 : S_.BroadcastsInDim S64x8x65536x1 (![] : Fin 0 → Fin S64x8x65536x1.rank)
  reducesTo_S64x8x65536x1_S_d0_1_2_3 : S64x8x65536x1.ReducesTo [0, 1, 2, 3] S_
  h_S_ : 0 < S_.numel

variable [Facts]

def fn {F : FTy → Type} [FloatOps F] (main_arg0 : FVec F S64x8x65536x1 .f32) (main_arg1 : FVec F S64x8x65536x1 .f32) : IVec S_ 1 :=
  let main_v0 : FVec F S64x8x65536x1 .f32 := Host.absf main_arg0
  let main_cst : FVec F S_ .f32 := constant S_ .f32 0x7F800000#32
  let main_v1 : FVec F S64x8x65536x1 .f32 := broadcastInDim S64x8x65536x1 ![] bcast_S_S64x8x65536x1 main_cst
  let main_v2 : IVec S64x8x65536x1 1 := cmpf .olt main_v0 main_v1
  let main_c : IVec S_ 1 := constantI S_ 1 1#1
  let main_v3 : IVec S_ 1 := (fun x v => Host.reduce IntOp.andi x v reducesTo_S64x8x65536x1_S_d0_1_2_3 h_S_) main_v2 main_c
  let main_v4 : FVec F S64x8x65536x1 .f32 := Host.absf main_arg1
  let main_cst_0 : FVec F S_ .f32 := constant S_ .f32 0x7F800000#32
  let main_v5 : FVec F S64x8x65536x1 .f32 := broadcastInDim S64x8x65536x1 ![] bcast_S_S64x8x65536x1 main_cst_0
  let main_v6 : IVec S64x8x65536x1 1 := cmpf .olt main_v4 main_v5
  let main_c_1 : IVec S_ 1 := constantI S_ 1 1#1
  let main_v7 : IVec S_ 1 := (fun x v => Host.reduce IntOp.andi x v reducesTo_S64x8x65536x1_S_d0_1_2_3 h_S_) main_v6 main_c_1
  let main_v8 : IVec S_ 1 := andi main_v3 main_v7
  main_v8
-- ==== Kernel.lean ====
abbrev S64x8x65536x1 : Shape := ⟨4, ![64, 8, 65536, 1]⟩
abbrev S512x65536 : Shape := ⟨2, ![512, 65536]⟩
abbrev S512x1 : Shape := ⟨2, ![512, 1]⟩
abbrev S16x65536 : Shape := ⟨2, ![16, 65536]⟩
abbrev S16x1 : Shape := ⟨2, ![16, 1]⟩
abbrev S16 : Shape := ⟨1, ![16]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S64x8x65536x1, .f32⟩
  | .hbm, ⟨1, _⟩ => ⟨S64x8x65536x1, .f32⟩
  | .hbm, ⟨2, _⟩ => ⟨S512x65536, .f32⟩
  | .hbm, ⟨3, _⟩ => ⟨S512x65536, .f32⟩
  | .hbm, ⟨4, _⟩ => ⟨S512x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S16x65536, .f32⟩
  | .local _ .vmem, ⟨1, _⟩ => ⟨S16x65536, .f32⟩
  | .local _ .vmem, ⟨2, _⟩ => ⟨S16x65536, .f32⟩
  | .local _ .vmem, ⟨3, _⟩ => ⟨S16x65536, .f32⟩
  | .local _ .vmem, ⟨4, _⟩ => ⟨S16x1, .f32⟩
  | .local _ .vmem, ⟨5, _⟩ => ⟨S16x1, .f32⟩
  | _, _ => ⟨S64x8x65536x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x65536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S64x8x65536x1_S512x65536 : S64x8x65536x1.ShapeCasts S512x65536
  inb_S16x65536_S16x65536_0_0 : ∀ a, (![0, 0] : Fin 2 → Nat) a + S16x65536.size a ≤ S16x65536.size a
  h_S16x65536 : 0 < S16x65536.numel
  shapeCasts_S16x65536_S16x65536 : S16x65536.ShapeCasts S16x65536
  reduces_S16x65536_S16 : S16x65536.Reduces [1] S16
  shapeCasts_S16_S16x1 : S16.ShapeCasts S16x1
  inb_S16x1_S16x1_0_0 : ∀ a, (![0, 0] : Fin 2 → Nat) a + S16x1.size a ≤ S16x1.size a
  h_S16x1 : 0 < S16x1.numel
  reducesTo_S512x1_S_d0_1 : S512x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x65536.size a ≤ S512x65536.size a
  hwx0_0 : ∀ i : grid0.Coords, EltTy.bits .f32 = 32 ∨ (Rect.block (s := S512x65536) S16x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x65536.size a ≤ S512x65536.size a
  hwx0_1 : ∀ i : grid0.Coords, EltTy.bits .f32 = 32 ∨ (Rect.block (s := S512x65536) S16x65536.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S512x1.size a
  hwx0_2 : ∀ i : grid0.Coords, EltTy.bits .f32 = 32 ∨ (Rect.block (s := S512x1) S16x1.size (cc0_transform_2 i) (hinb0_2 i)).WholeWords (EltTy.packing .f32)

variable [Facts₀]

abbrev win0_0 : Pipeline.Window sig grid0 :=
  Pipeline.Window.ofSpec (Memref.whole main_v0) S16x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x65536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x8x65536x1 : Shape := ⟨4, ![64, 8, 65536, 1]⟩
abbrev S64x8x65536 : Shape := ⟨3, ![64, 8, 65536]⟩
abbrev S_ : Shape := ⟨0, ![]⟩
abbrev S64x8 : Shape := ⟨2, ![64, 8]⟩

abbrev nBuf : Space → Nat
  | .hbm => 31
  | .vmem => 0
  | .smem => 0
  | _ => 0

abbrev bufTy : (tb : Table) → Fin (tcTables nBuf tb) → BufTy
  | .hbm, ⟨0, _⟩ => ⟨S64x8x65536x1, .f32⟩
  | .hbm, ⟨1, _⟩ => ⟨S64x8x65536x1, .f32⟩
  | .hbm, ⟨2, _⟩ => ⟨S64x8x65536, .f32⟩
  | .hbm, ⟨3, _⟩ => ⟨S64x8x65536, .f32⟩
  | .hbm, ⟨4, _⟩ => ⟨S64x8x65536, .f32⟩
  | .hbm, ⟨5, _⟩ => ⟨S_, .f32⟩
  | .hbm, ⟨6, _⟩ => ⟨S_, .f32⟩
  | .hbm, ⟨7, _⟩ => ⟨S64x8x65536, .f32⟩
  | .hbm, ⟨8, _⟩ => ⟨S64x8x65536, .f32⟩
  | .hbm, ⟨9, _⟩ => ⟨S64x8x65536, .f32⟩
  | .hbm, ⟨10, _⟩ => ⟨S64x8x65536, .f32⟩
  | .hbm, ⟨11, _⟩ => ⟨S_, .f32⟩
  | .hbm, ⟨12, _⟩ => ⟨S_, .f32⟩
  | .hbm, ⟨13, _⟩ => ⟨S64x8x65536, .f32⟩
  | .hbm, ⟨14, _⟩ => ⟨S64x8x65536, .f32⟩
  | .hbm, ⟨15, _⟩ => ⟨S64x8x65536, .f32⟩
  | .hbm, ⟨16, _⟩ => ⟨S_, .f32⟩
  | .hbm, ⟨17, _⟩ => ⟨S64x8x65536, .f32⟩
  | .hbm, ⟨18, _⟩ => ⟨S64x8x65536, .f32⟩
  | .hbm, ⟨19, _⟩ => ⟨S64x8x65536, .f32⟩
  | .hbm, ⟨20, _⟩ => ⟨S64x8x65536, .f32⟩
  | .hbm, ⟨21, _⟩ => ⟨S64x8x65536, .f32⟩
  | .hbm, ⟨22, _⟩ => ⟨S_, .f32⟩
  | .hbm, ⟨23, _⟩ => ⟨S64x8, .f32⟩
  | .hbm, ⟨24, _⟩ => ⟨S_, .f32⟩
  | .hbm, ⟨25, _⟩ => ⟨S64x8, .f32⟩
  | .hbm, ⟨26, _⟩ => ⟨S64x8, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S64x8x65536x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_call0_v0 : Ref sig .tc := ⟨.hbm, 6, rfl⟩
abbrev main_call0_v1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_call1_v0 : Ref sig .tc := ⟨.hbm, 12, rfl⟩
abbrev main_call1_v1 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩

abbrev nD : Nat := 1
abbrev τ : Topo := Topo.v7x

variable {F : FTy → Type} [FloatOps F]

class Facts₀ : Prop where
  shapeCasts_S64x8x65536x1_S64x8x65536 : S64x8x65536x1.ShapeCasts S64x8x65536
  bcast_S_S64x8x65536 : S_.BroadcastsInDim S64x8x65536 (![] : Fin 0 → Fin S64x8x65536.rank)
  reducesTo_S64x8x65536_S64x8_d2 : S64x8x65536.ReducesTo [2] S64x8
  h_S_ : 0 < S_.numel
  bcast_S_S64x8 : S_.BroadcastsInDim S64x8 (![] : Fin 0 → Fin S64x8.rank)
  reducesTo_S64x8_S_d0_1 : S64x8.ReducesTo [0, 1] S_

variable [Facts₀]

class Facts : Prop extends Facts₀ where

variable [Facts]
-- ==== Proof.Literals.lean ====
/-
  The float literals the two programs spell, as the extended reals their patterns denote at the exact
  instance: the clamp -100, the unit 1, the row length 65536 and its reciprocal 2^(-16). The reciprocal is a
  dyadic rational, so the kernel's product with it and the reference's quotient by 65536 are the same number.
-/
import Idealize.ShloMosaic.PureOps.Ideal

noncomputable section

namespace Cert.Literals

open Idealize.ShloMosaic

/-- The pattern of `-100.0` denotes the real `-100`. -/
theorem ofBits_neg100 : Ideal.ofBits .f32 0xC2C80000#32 = ((-100 : ℝ) : EReal) := by
  simp [Ideal.ofBits, Ideal.ieee, -EReal.coe_mul]; norm_num

/-- The pattern of `1.0` denotes the real `1`. -/
theorem ofBits_one : Ideal.ofBits .f32 0x3F800000#32 = ((1 : ℝ) : EReal) := by
  simp [Ideal.ofBits, Ideal.ieee, -EReal.coe_mul]; norm_num

/-- The pattern of `65536.0` denotes the real `65536`. -/
theorem ofBits_65536 : Ideal.ofBits .f32 0x47800000#32 = ((65536 : ℝ) : EReal) := by
  simp [Ideal.ofBits, Ideal.ieee, -EReal.coe_mul]; norm_num

/-- The pattern of `1.52587891E-5` denotes exactly `1/65536 = 2^(-16)`. -/
theorem ofBits_inv65536 : Ideal.ofBits .f32 0x37800000#32 = ((1 / 65536 : ℝ) : EReal) := by
  simp [Ideal.ofBits, Ideal.ieee, -EReal.coe_mul]; norm_num

end Cert.Literals

end
-- ==== Proof.Bce.lean ====
/-
  The per-element binary cross-entropy term, in the two arrangements the programs compute, on the extended reals.

  With `a = max(-100, log p)` and `b = max(-100, log(1 - p))` the kernel forms `0 - (b + t·(a - b))` and the
  reference `-(t·a + (1 - t)·b)`. For a REAL `p` the exact logarithm is a real or `-∞` (never `+∞`), so both clamped
  logarithms are reals; with `t` real as well the two arrangements are one polynomial identity over ℝ. (At an
  infinite `t` the identity would need distributivity over a sum of opposite infinities, which the extended reals
  do not have: this is where finiteness of the inputs is used.)

  Then the loss: the kernel sums each of the 512 rows, scales by `2^(-16)`, sums the rows and divides by 64; the
  reference sums each (b, c) row, divides by 65536, sums over (b, c) and divides by 64. Row `r = 8·b + c` of the
  kernel's matrix is row (b, c) of the reference's.
-/
import Idealize.ShloMosaic.PureOps.Ideal.Laws
import Idealize.ShloMosaic.Lib.ValueIdx
import proofs.«158866_j23536420782514_2_alg».proof.Proof.Literals

noncomputable section

namespace Cert.Bce

open Idealize.ShloMosaic

/-- The kernel's arrangement of one element's term: `0 - (b + t·(a - b))`, its negations written as differences from zero. -/
def kernelTerm (p t : EReal) : EReal :=
  Ideal.ofBits .f32 0x00000000#32
    - (max (Ideal.ofBits .f32 0xC2C80000#32) (Ideal.log1p (Ideal.ofBits .f32 0x00000000#32 - p))
      + t * (max (Ideal.ofBits .f32 0xC2C80000#32) (Ideal.log p)
            - max (Ideal.ofBits .f32 0xC2C80000#32) (Ideal.log1p (Ideal.ofBits .f32 0x00000000#32 - p))))

/-- The reference's arrangement: `-(t·a + (1 - t)·b)`. -/
def referenceTerm (p t : EReal) : EReal :=
  -(t * max (Ideal.ofBits .f32 0xC2C80000#32) (Ideal.log p)
    + (Ideal.ofBits .f32 0x3F800000#32 - t) * max (Ideal.ofBits .f32 0xC2C80000#32) (Ideal.log1p (-p)))

/-- The exact logarithm of a real is a real or `-∞`. -/
theorem log_coe_ne_top (r : ℝ) : Ideal.log (r : EReal) ≠ ⊤ := by
  rw [Ideal.log_coe]
  split
  · exact bot_ne_top
  · exact EReal.coe_ne_top _

/-- Clamping below at `-100` anything that is not `+∞` gives a real. -/
theorem clamp_real {x : EReal} (hx : x ≠ ⊤) : ∃ r : ℝ, max (Ideal.ofBits .f32 0xC2C80000#32) x = (r : EReal) := by
  rw [Literals.ofBits_neg100]
  induction x using EReal.rec with
  | bot => exact ⟨-100, max_eq_left bot_le⟩
  | coe r =>
    rcases le_total (-100 : ℝ) r with h | h
    · exact ⟨r, max_eq_right (EReal.coe_le_coe_iff.2 h)⟩
    · exact ⟨-100, max_eq_left (EReal.coe_le_coe_iff.2 h)⟩
  | top => exact absurd rfl hx

/-- `log(1 + (-p))` of a real `p` is not `+∞`. -/
theorem log1p_neg_coe_ne_top (p : ℝ) : Ideal.log1p (-(p : EReal)) ≠ ⊤ := by
  unfold Ideal.log1p
  have e : (1 : EReal) + -(p : EReal) = ((1 - p : ℝ) : EReal) := by
    rw [sub_eq_add_neg, EReal.coe_add, EReal.coe_neg, EReal.coe_one]
  rw [e]
  exact log_coe_ne_top _

/-- On real inputs the two arrangements of the term agree. -/
theorem kernelTerm_eq_referenceTerm (p t : ℝ) : kernelTerm (p : EReal) (t : EReal) = referenceTerm (p : EReal) (t : EReal) := by
  unfold kernelTerm referenceTerm
  rw [Ideal.ofBits_zero_f32, Literals.ofBits_one, zero_sub, zero_sub]
  obtain ⟨a, ha⟩ := clamp_real (log_coe_ne_top p)
  obtain ⟨b, hb⟩ := clamp_real (log1p_neg_coe_ne_top p)
  rw [ha, hb]
  exact_mod_cast (by ring : -(b + t * (a - b)) = -(t * a + (1 - t) * b))

/-- A sum over `Fin (m·n)` as the double sum over quotient and remainder: entry `n·a + b` at `(a, b)`. -/
theorem sum_fin_mul {M : Type*} [AddCommMonoid M] (m n : ℕ) (f : Fin (m * n) → M) :
    ∑ r, f r = ∑ a : Fin m, ∑ b : Fin n, f (finProdFinEquiv (a, b)) := by
  rw [← Equiv.sum_comp finProdFinEquiv f, Fintype.sum_prod_type]

/-- Row `8·b + c` of the 512 rows. -/
def row (b : Fin 64) (c : Fin 8) : Fin 512 := ⟨8 * b.val + c.val, by have := b.isLt; have := c.isLt; omega⟩

/-- A sum over the 512 rows as the double sum over (b, c). -/
theorem sum_rows {M : Type*} [AddCommMonoid M] (f : Fin 512 → M) :
    ∑ r, f r = ∑ b : Fin 64, ∑ c : Fin 8, f (row b c) :=
  (sum_fin_mul 64 8 f).trans
    (Finset.sum_congr rfl fun b _ => Finset.sum_congr rfl fun c _ => congrArg f (Fin.ext (Nat.add_comm _ _)))

/-- Entry (b, c, h) of a [64, 8, 65536, 1] array (its last axis has the one coordinate 0). -/
def entry (x : (⟨4, ![64, 8, 65536, 1]⟩ : Shape).Idx → EReal) (b : Fin 64) (c : Fin 8) (h : Fin 65536) : EReal :=
  x (ValueIdx.ix4 b c h 0)

/-- The reference's loss of two [64, 8, 65536] families: each row's sum (from the zero literal) divided by 65536,
    these summed over (b, c) (from the zero literal), divided by 64. -/
def loss (P T : Fin 64 → Fin 8 → Fin 65536 → EReal) : EReal :=
  Ideal.div
    (Ideal.ofBits .f32 0x00000000#32
      + ∑ b : Fin 64, ∑ c : Fin 8,
          Ideal.div (Ideal.ofBits .f32 0x00000000#32 + ∑ h : Fin 65536, referenceTerm (P b c h) (T b c h))
            (Ideal.ofBits .f32 0x47800000#32))
    (Ideal.ofBits .f32 0x42800000#32)

/-- The kernel's loss of two [512, 65536] families: each row's sum times `2^(-16)`, these summed over the rows
    (from the zero literal), divided by 64. -/
def kernelLoss (P T : Fin 512 → Fin 65536 → EReal) : EReal :=
  Ideal.div
    (Ideal.ofBits .f32 0x00000000#32
      + ∑ r : Fin 512, (∑ h : Fin 65536, kernelTerm (P r h) (T r h)) * Ideal.ofBits .f32 0x37800000#32)
    (Ideal.ofBits .f32 0x42800000#32)

/-- The two losses agree when the kernel's row `8·b + c` is the reference's row (b, c) and every entry is real. -/
theorem kernelLoss_eq_loss (P' T' : Fin 512 → Fin 65536 → EReal) (P T : Fin 64 → Fin 8 → Fin 65536 → EReal)
    (hP : ∀ b c h, P' (row b c) h = P b c h) (hT : ∀ b c h, T' (row b c) h = T b c h)
    (fP : ∀ b c h, ∃ r : ℝ, P b c h = (r : EReal)) (fT : ∀ b c h, ∃ r : ℝ, T b c h = (r : EReal)) :
    kernelLoss P' T' = loss P T := by
  unfold kernelLoss loss
  refine congrArg (fun s => Ideal.div (Ideal.ofBits .f32 0x00000000#32 + s) (Ideal.ofBits .f32 0x42800000#32)) ?_
  refine (sum_rows _).trans ?_
  refine Finset.sum_congr rfl fun b _ => Finset.sum_congr rfl fun c _ => ?_
  rw [Literals.ofBits_65536, Ideal.div_coe (by norm_num : (65536 : ℝ) ≠ 0), Literals.ofBits_inv65536,
    Ideal.ofBits_zero_f32, zero_add]
  refine congrArg (· * (((1 / 65536 : ℝ)) : EReal)) ?_
  refine Finset.sum_congr rfl fun h _ => ?_
  rw [hP, hT]
  obtain ⟨p, hp⟩ := fP b c h
  obtain ⟨t, ht⟩ := fT b c h
  rw [hp, ht]
  exact kernelTerm_eq_referenceTerm p t

end Cert.Bce

end
-- ==== Proof.LibKeepdims.lean ====
/-
  Keepdims columns read at an index.

  A reduction along the rows of an `a × b` array that keeps the reduced axis leaves an `a × 1` column: the length-`a`
  vector of row statistics cast to that shape holds, at `(i, ·)`, the vector's entry `i` (both have row-major position
  `i`); and the column broadcast back along the rows holds, at `(p, c)`, the column's entry `p` (the unit axis is read at
  0, the other at the same coordinate). For any element type and any extents.
-/
import Idealize.ShloMosaic.Lib.Pipeline.Value
import Idealize.ShloMosaic.Lib.ValueIdx

noncomputable section

namespace Cert.Lib.Keepdims

open Idealize.ShloMosaic Idealize.ShloMosaic.ValueIdx

/-- A length-`a` vector cast to an `a × 1` column reads, at `(i, ·)`, the vector at `i`. -/
theorem col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast along its rows reads, at `(p, c)`, the column at `p`. -/
theorem bcastCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims

end
-- ==== Proof.KernelRow.lean ====
/-
  The kernel body's arithmetic on one pair of [16, 65536] blocks, read at an entry of its [16, 1] result: row `r` is
  the sum over the row of the kernel's arrangement of the cross-entropy term, times the literal `2^(-16)`.
  (The lane sum starts from its neutral element; the cast of the 16 row sums to a column reads the vector at the row.)
-/
import proofs.«158866_j23536420782514_2_alg».proof.Proof.Gen.KernelIdeal.Skeleton
import proofs.«158866_j23536420782514_2_alg».proof.Proof.Bce
import proofs.«158866_j23536420782514_2_alg».proof.Proof.LibKeepdims
import Idealize.ShloMosaic.Lib.Pipeline.Value
import Idealize.ShloMosaic.Lib.ValueIdx
import Idealize.ShloMosaic.PureOps.Ideal.Laws

noncomputable section

namespace Cert.KernelIdeal.RowValue

open Cert.KernelIdeal Cert.KernelIdeal.Gen Idealize.ShloMosaic Idealize.ShloMosaic.ValueIdx

/-- The lane sum of a [16, 65536] block at row `r` is the sum of the row's entries. -/
theorem laneSum_apply (v : FVec Ideal S16x65536 .f32) (hφ : FKind.Formats .f32)
    (hacc : (0x00000000#32 : BitVec 32) = 0x00000000#32) (r : Fin 16) :
    multiReduction .add [1] S16 v 0x00000000#32 reduces_S16x65536_S16 hφ hacc (ix1 r) = ∑ h : Fin 65536, v (ix2 r h) := by
  refine (Ideal.multiReduction_add_single v 0x00000000#32 reduces_S16x65536_S16 hφ hacc (ix1 r)).trans ?_
  show (∑ k : Fin 65536, v (reduces_S16x65536_S16.lift (ix1 r) k)) = _
  refine Finset.sum_congr rfl fun h _ => congrArg v ?_
  funext a; apply Fin.ext
  match a with
  | ⟨0, _⟩ => rfl
  | ⟨1, _⟩ => rfl

/-- THE BODY'S RESULT at row `r`: the row's sum of the kernel's terms, scaled by `2^(-16)`. -/
theorem pay_apply (x0 x1 : FVec Ideal S16x65536 .f32) (r : Fin 16) (q : Fin 1) :
    k0_pay1 (F := Ideal) x0 x1 (ix2 r q)
      = (∑ h : Fin 65536, Bce.kernelTerm (x0 (ix2 r h)) (x1 (ix2 r h))) * Ideal.ofBits .f32 0x37800000#32 := by
  unfold k0_pay1
  simp only [shapeCast_self]
  refine (mulf_apply _ _ _).trans ?_
  refine congrArg₂ (· * ·) ?_ rfl
  refine (Cert.Lib.Keepdims.col_apply _ shapeCasts_S16_S16x1 r q).trans ?_
  refine (laneSum_apply _ _ _ r).trans ?_
  rfl

end Cert.KernelIdeal.RowValue

end
-- ==== Proof.KernelArray.lean ====
/-
  What the kernel's region leaves in its [512, 1] result column, as ONE function of the two [512, 65536] matrices
  it reads: at each of the 32 grid points the body turns rows 16t … 16t+15 of both matrices into the same rows of
  the column (each row its sum of cross-entropy terms, scaled by `2^(-16)`), the 32 blocks tile the column, so the
  column ends as `rowMeans` of the matrices. The matrices themselves are the arguments reshaped by the two host
  lines before the region.
-/
import proofs.«158866_j23536420782514_2_alg».proof.Proof.Gen.KernelIdeal.Frame
import proofs.«158866_j23536420782514_2_alg».proof.Proof.KernelRow
import Idealize.ShloMosaic.Lib.Pipeline.Value
import Idealize.ShloMosaic.Lib.StableHlo.Run

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat Cfg Window)

variable (m : (ℓ : Loc nD τ sig) → Buf (Elt Ideal) ℓ) (ρ : Dev nD → PrngReg)

/-- The zero offsets of the body's whole-block accesses. -/
theorem hz : (![0, 0] : Fin 2 → Nat) = fun _ => 0 := funext fun a => by fin_cases a <;> rfl

/-- The [512, 1] column the region leaves: at row `r` the sum over the row of the kernel's terms of the two
    [512, 65536] matrices, times `2^(-16)`. -/
def rowMeans (a0 a1 : S512x65536.Idx → EReal) : S512x1.Idx → EReal := fun i =>
  (∑ h : Fin 65536, Bce.kernelTerm (a0 (ix2 (⟨(i 0).val, idx2_lt0 i⟩ : Fin 512) h)) (a1 (ix2 (⟨(i 0).val, idx2_lt0 i⟩ : Fin 512) h)))
    * Ideal.ofBits .f32 0x37800000#32

/-- The index maps over the 32 grid points: at point `t` the two inputs' blocks and the output's block all sit at
    block row `t` and block column 0. -/
theorem idx_facts : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (1 : Fin 2) = 0
    ∧ win0_2.index t (0 : Fin 2) = t.val :=
  (by decide +kernel : ∀ t : Fin grid0.N, _)

/-- The first matrix the region reads is the first argument reshaped to [512, 65536]. -/
theorem V_main_v0 (c : Dev nD) : (V m c main_v0 : S512x65536.Idx → EReal)
    = shapeCast S512x65536 (m ((c : Thread nD τ).loc main_arg0)) shapeCasts_S64x8x65536x1_S512x65536 := by
  show StableHlo.after hostOps0 (fun b => m (c, b)) (Proc.devRef .tc main_v0) = _
  after_results; rfl

/-- The second matrix is the second argument reshaped likewise. -/
theorem V_main_v1 (c : Dev nD) : (V m c main_v1 : S512x65536.Idx → EReal)
    = shapeCast S512x65536 (m ((c : Thread nD τ).loc main_arg1)) shapeCasts_S64x8x65536x1_S512x65536 := by
  show StableHlo.after hostOps0 (fun b => m (c, b)) (Proc.devRef .tc main_v1) = _
  after_results; rfl

/-- What point `t` writes back is block `t` (rows 16t … 16t+15) of `rowMeans` of the two matrices: row `r` of the
    body's result is computed from rows `r` of the two input blocks, which are rows `16t + r` of the matrices. -/
theorem flushed_eq (c : Dev nD) (t : Fin cfg0.N) :
    (dats m 0 c).flushed 2 t = ((cfg0.win 2).blk t).view.read (Elt Ideal) (rowMeans (V m c main_v0) (V m c main_v1)) := by
  show (cfg0.win 2).cut (grid0.coords t) ((dats m 0 c).after 2 t) = _
  rw [after0_2]
  unfold out0_2
  rw [View.canon_unit_zero hz]
  simp only [View.ld_unit_zero (S := S16x65536) hz]
  obtain ⟨e0, e1, e2, e3, e4, e5⟩ := idx_facts t
  funext j
  obtain ⟨r, q, rfl⟩ : ∃ (r : Fin 16) (q : Fin 1), j = ix2 r q := ⟨j 0, j 1, eq_ix2 j⟩
  show k0_pay1 (iblk m c 0 t) (iblk m c 1 t) (ix2 r q)
    = rowMeans (V m c main_v0) (V m c main_v1) (((cfg0.win 2).blk t).view.emb (ix2 r q))
  refine (RowValue.pay_apply (iblk m c 0 t) (iblk m c 1 t) r q).trans ?_
  unfold rowMeans
  refine congrArg (· * Ideal.ofBits .f32 0x37800000#32) (Finset.sum_congr rfl fun h _ => ?_)
  refine congrArg₂ Bce.kernelTerm ?_ ?_
  · show V m c main_v0 (((cfg0.win 0).blk t).view.emb (ix2 r h)) = _
    refine congrArg (V m c main_v0) (funext fun a => Fin.ext ?_)
    match a with
    | ⟨0, _⟩ => show win0_0.index t (0 : Fin 2) * 16 + 1 * r.val = win0_2.index t (0 : Fin 2) * 16 + 1 * r.val; omega
    | ⟨1, _⟩ => show win0_0.index t (1 : Fin 2) * 65536 + 1 * h.val = h.val; omega
  · show V m c main_v1 (((cfg0.win 1).blk t).view.emb (ix2 r h)) = _
    refine congrArg (V m c main_v1) (funext fun a => Fin.ext ?_)
    match a with
    | ⟨0, _⟩ => show win0_1.index t (0 : Fin 2) * 16 + 1 * r.val = win0_2.index t (0 : Fin 2) * 16 + 1 * r.val; omega
    | ⟨1, _⟩ => show win0_1.index t (1 : Fin 2) * 65536 + 1 * h.val = h.val; omega

/-- An index of the column is in point `t`'s block iff each coordinate is in the block's range on its axis. -/
theorem mem_blk (t : Fin cfg0.N) (i : S512x1.Idx) :
    i ∈ ((cfg0.win 2).blk t).view.set ↔ ∀ a : Fin 2, win0_2.index t a * S16x1.size a ≤ (i a).val ∧ (i a).val < win0_2.index t a * S16x1.size a + S16x1.size a := by
  show i ∈ ((View.whole main_v2).slice (win0_2.rect t)).set ↔ _
  rw [View.set_slice_whole, Rect.mem_set_unit]
  exact Iff.rfl

/-- Every row is written back by some point: row `r` by point `r / 16`. -/
theorem cover (i : S512x1.Idx) : ∃ t : Fin cfg0.N, (cfg0.win 2).flush t = true ∧ i ∈ ((cfg0.win 2).blk t).view.set := by
  have hi0 : (i 0).val < 512 := idx2_lt0 i
  have hi1 : (i 1).val < 1 := idx2_lt1 i
  have hN : (i 0).val / 16 < cfg0.N := by show _ < grid0.N; rw [N_0]; omega
  refine ⟨⟨(i 0).val / 16, hN⟩, flush0_2 _, ?_⟩
  rw [mem_blk]
  obtain ⟨-, -, -, -, e4, e5⟩ := idx_facts ⟨(i 0).val / 16, hN⟩
  intro a
  match a with
  | ⟨0, _⟩ =>
    show win0_2.index ⟨(i 0).val / 16, hN⟩ (0 : Fin 2) * 16 ≤ (i 0).val ∧ (i 0).val < win0_2.index ⟨(i 0).val / 16, hN⟩ (0 : Fin 2) * 16 + 16
    rw [e5]; show (i 0).val / 16 * 16 ≤ (i 0).val ∧ (i 0).val < (i 0).val / 16 * 16 + 16; omega
  | ⟨1, _⟩ =>
    show win0_2.index ⟨(i 0).val / 16, hN⟩ (1 : Fin 2) * 1 ≤ (i 1).val ∧ (i 1).val < win0_2.index ⟨(i 0).val / 16, hN⟩ (1 : Fin 2) * 1 + 1
    rw [e4]; omega

/-- THE COLUMN after the region: `rowMeans` of the two matrices the region found. -/
theorem final (c : Dev nD) : (dats m 0 c).arrAt 2 cfg0.N = rowMeans (V m c main_v0) (V m c main_v1) :=
  (dats m 0 c).arrAt_eq_of_cover 2 _ (fun t _ => flushed_eq m c t) cover

end Cert.KernelIdeal.ArrayValue

end
-- ==== Proof.KernelRun.lean ====
/-
  The kernel program's result. After the region the host sums the [512, 1] column of scaled row sums (from the zero
  literal) and divides by 64. Row `8·b + c`, column `h` of an argument reshaped to [512, 65536] is its entry
  (b, c, h, 0) (both have row-major position `(8·b + c)·65536 + h`), so the kernel's total runs over the same
  (b, c, h) as the reference's; entry by entry the two arrangements of the cross-entropy term agree on reals, and
  `x / 65536 = x · 2^(-16)` on every extended real: the result is the loss `Bce.loss` of the arguments' entries.
-/
import proofs.«158866_j23536420782514_2_alg».proof.Proof.KernelArray
import Idealize.ShloMosaic.Lib.Pipeline.FrameSuffix

set_option maxRecDepth 16384

noncomputable section

namespace Cert.KernelIdeal.RunValue

open Cert.KernelIdeal Cert.KernelIdeal.Gen Cert.KernelIdeal.ArrayValue Idealize.ShloMosaic Idealize.ShloMosaic.TcCoe Idealize.SL.Sem
open Idealize.ShloMosaic.ValueIdx Idealize.ShloMosaic.StableHlo

variable (m : (ℓ : Loc nD τ sig) → Buf (Elt Ideal) ℓ) (ρ : Dev nD → PrngReg)

/-- The host lines after the region, applied to the column the region left: its total (from the zero literal)
    divided by 64. -/
theorem tail_eq (c : Dev nD) :
    Pipeline.afterTail₀ cfgs (dats m) 0 (V0 m) [hostOps1] c main_v4
      = Host.divf (F := Ideal) (Host.reduceAdd (F := Ideal) (rowMeans (V m c main_v0) (V m c main_v1)) (constant (F := Ideal) S_ .f32 0x00000000#32) reducesTo_S512x1_S_d0_1 h_S_) (constant (F := Ideal) S_ .f32 0x42800000#32) := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.tc.devRef main_v2)
      = rowMeans (V m c main_v0) (V m c main_v1) :=
    (Pipeline.withArrays_arr spec0 launch0.win.arr_inj c _ _ 2).trans (final m c)
  rw [e]

/-- The total of a [512, 1] column divided by 64, at the result's one index: the zero literal plus the sum over the
    512 rows of the column's entries, divided by the literal 64. -/
theorem total_apply (G : S512x1.Idx → EReal) (i : S_.Idx) :
    Host.divf (F := Ideal) (Host.reduceAdd (F := Ideal) G (constant (F := Ideal) S_ .f32 0x00000000#32) reducesTo_S512x1_S_d0_1 h_S_) (constant (F := Ideal) S_ .f32 0x42800000#32) i
      = Ideal.div (Ideal.ofBits .f32 0x00000000#32 + ∑ r : Fin 512, G (ix2 r (0 : Fin 1))) (Ideal.ofBits .f32 0x42800000#32) := by
  show Ideal.div (Host.reduceAdd (F := Ideal) G _ reducesTo_S512x1_S_d0_1 h_S_ i) _ = _
  refine congrArg (fun s => Ideal.div s (Ideal.ofBits .f32 0x42800000#32)) ?_
  simp only [Host.reduceAdd, Ideal.hostReduceAdd_def]
  refine (Ideal.hostReduceAdd_total reducesTo_S512x1_S_d0_1 (fun b => b.elim0) G _ i).trans ?_
  refine congrArg₂ (· + ·) rfl ?_
  rw [sum_idx2]
  exact Finset.sum_congr rfl fun r _ => Fin.sum_univ_one _

/-- Row `8·b + c`, column `h` of an argument reshaped to [512, 65536] is its entry (b, c, h, 0). -/
theorem reshaped_apply (x : S64x8x65536x1.Idx → EReal) (b : Fin 64) (c : Fin 8) (h : Fin 65536) :
    shapeCast S512x65536 x shapeCasts_S64x8x65536x1_S512x65536 (ix2 (Bce.row b c) h) = Bce.entry x b c h := by
  refine shapeCast_apply x shapeCasts_S64x8x65536x1_S512x65536 _ (ix4 b c h 0) ?_
  rw [Shape.rowMajor_val_four, Shape.rowMajor_val_two]
  show ((b.val * 8 + c.val) * 65536 + h.val) * 1 + 0 = (8 * b.val + c.val) * 65536 + h.val
  omega

/-- THE KERNEL'S RESULT, when every entry of both arguments is a real: the loss of the arguments' entries. -/
theorem value_eq (c : Dev nD)
    (f0 : ∀ i, ∃ r : ℝ, m ((c : Thread nD τ).loc main_arg0) i = (r : EReal))
    (f1 : ∀ i, ∃ r : ℝ, m ((c : Thread nD τ).loc main_arg1) i = (r : EReal)) :
    Pipeline.afterTail₀ cfgs (dats m) 0 (V0 m) [hostOps1] c main_v4
      = fun _ => Bce.loss (Bce.entry (m ((c : Thread nD τ).loc main_arg0))) (Bce.entry (m ((c : Thread nD τ).loc main_arg1))) := by
  rw [tail_eq]
  funext i
  rw [total_apply]
  refine Eq.trans ?_ (Bce.kernelLoss_eq_loss (fun r h => V m c main_v0 (ix2 r h)) (fun r h => V m c main_v1 (ix2 r h)) _ _
    (fun b c' h => ?_) (fun b c' h => ?_) (fun b c' h => f0 _) (fun b c' h => f1 _))
  · rfl
  · show V m c main_v0 (ix2 (Bce.row b c') h) = _
    rw [V_main_v0]; exact reshaped_apply _ b c' h
  · show V m c main_v1 (ix2 (Bce.row b c') h) = _
    rw [V_main_v1]; exact reshaped_apply _ b c' h

/-- THE KERNEL'S RUN: it terminates with its result at the loss of the arguments' entries and the arguments
    unchanged, from any memory whose argument entries are all real. -/
theorem run (hf : ∀ c : Dev nD, (∀ i, ∃ r : ℝ, m ((c : Thread nD τ).loc main_arg0) i = (r : EReal))
      ∧ (∀ i, ∃ r : ℝ, m ((c : Thread nD τ).loc main_arg1) i = (r : EReal))) :
    θ_run defs (onTc (τ := τ) (main (F := Ideal))) ⟨m, fun _ => 0, ρ⟩ fun r => ∀ c : Dev nD,
      r.2.mem ((c.tc : Thread nD τ).loc main_v4)
          = (fun _ => Bce.loss (Bce.entry (m ((c : Thread nD τ).loc main_arg0))) (Bce.entry (m ((c : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v4 (Pipeline.mem_restRefs_of main_v4 (by decide) (by decide))).trans (value_eq m c (hf c).1 (hf c).2),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.RunValue

end
-- ==== Proof.ReferenceLoss.lean ====
/-
  The reference's result, read operation by operation: its one entry is the loss `Bce.loss` of the two argument
  arrays' entries. Element (b, c, h) of the reshaped arguments is entry (b, c, h, 0) of the arguments; the
  element's term is the reference's arrangement of the cross-entropy term; the reduction over the last axis is the
  row's sum from the zero literal, divided by 65536; the reduction over both remaining axes is the double sum over
  (b, c) from the zero literal, divided by 64.
-/
import proofs.«158866_j23536420782514_2_alg».proof.Proof.Gen.ReferenceIdeal.Read
import proofs.«158866_j23536420782514_2_alg».proof.Proof.Bce
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx

/-- Element (b, c, h) of the first reshaped argument is entry (b, c, h, 0) of the argument. -/
theorem idx_v0 (b : Fin 64) (c : Fin 8) (h : Fin 65536) : idx_main_v0 (ix3 b c h) = ix4 b c h 0 := by
  funext a; apply Fin.ext
  have hb := b.isLt; have hc := c.isLt; have hh := h.isLt
  match a with
  | ⟨0, _⟩ => show ((b.val * 8 + c.val) * 65536 + h.val) / 524288 = b.val; omega
  | ⟨1, _⟩ => show ((b.val * 8 + c.val) * 65536 + h.val) / 65536 % 8 = c.val; omega
  | ⟨2, _⟩ => show ((b.val * 8 + c.val) * 65536 + h.val) / 1 % 65536 = h.val; omega
  | ⟨3, _⟩ => rfl

/-- The same for the second reshaped argument. -/
theorem idx_v1 (b : Fin 64) (c : Fin 8) (h : Fin 65536) : idx_main_v1 (ix3 b c h) = ix4 b c h 0 := by
  funext a; apply Fin.ext
  have hb := b.isLt; have hc := c.isLt; have hh := h.isLt
  match a with
  | ⟨0, _⟩ => show ((b.val * 8 + c.val) * 65536 + h.val) / 524288 = b.val; omega
  | ⟨1, _⟩ => show ((b.val * 8 + c.val) * 65536 + h.val) / 65536 % 8 = c.val; omega
  | ⟨2, _⟩ => show ((b.val * 8 + c.val) * 65536 + h.val) / 1 % 65536 = h.val; omega
  | ⟨3, _⟩ => rfl

/-- The element the row sums add up: the reference's arrangement of the term at entry (b, c, h). -/
theorem term_apply (x0 x1 : S64x8x65536x1.Idx → EReal) (b : Fin 64) (c : Fin 8) (h : Fin 65536) :
    val_main_v12 (F := Ideal) x0 x1 (ix3 b c h) = Bce.referenceTerm (Bce.entry x0 b c h) (Bce.entry x1 b c h) := by
  rw [val_main_v12_apply, val_main_v11_apply, val_main_v7_apply, val_main_v10_apply, val_main_v9_apply, val_main_v8_apply,
    val_main_cst_1_apply, val_main_v1_apply, val_main_v3_apply, val_main_v6_apply, val_main_call0_v1_apply,
    val_main_call1_v1_apply, val_main_call0_v0_apply, val_main_call1_v0_apply, val_main_cst_apply, val_main_cst_0_apply,
    val_main_v2_apply, val_main_v5_apply, val_main_v4_apply, val_main_v0_apply, idx_v0, idx_v1]
  simp only [Ideal.hostNegf_def, Ideal.negf_def, Ideal.addf_def, Ideal.mulf_def, Ideal.subf_def, Ideal.maximumf_def,
    Ideal.hostUnary_log_def, Ideal.hostUnary_log1p_def, Ideal.ofBits_def]
  rfl

/-- Row (b, c): its sum from the zero literal, divided by 65536. -/
theorem row_apply (x0 x1 : S64x8x65536x1.Idx → EReal) (b : Fin 64) (c : Fin 8) :
    val_main_v15 (F := Ideal) x0 x1 (ix2 b c)
      = Ideal.div (Ideal.ofBits .f32 0x00000000#32
          + ∑ h : Fin 65536, Bce.referenceTerm (Bce.entry x0 b c h) (Bce.entry x1 b c h)) (Ideal.ofBits .f32 0x47800000#32) := by
  rw [val_main_v15_apply, val_main_v13_apply, val_main_v14_apply, val_main_cst_3_apply, val_main_cst_2_apply]
  simp only [Ideal.hostDivf_def, Ideal.ofBits_def]
  refine congrArg (fun s => Ideal.div (Ideal.ofBits .f32 0x00000000#32 + s) (Ideal.ofBits .f32 0x47800000#32)) ?_
  refine Finset.sum_congr rfl fun h _ => ?_
  have e : idx_main_v13 (ix2 b c) h = ix3 b c h := by
    funext a; match a with | ⟨0, _⟩ => rfl | ⟨1, _⟩ => rfl | ⟨2, _⟩ => rfl
  rw [e]
  exact term_apply x0 x1 b c h

/-- THE REFERENCE'S RESULT is the loss of the arguments' entries. -/
theorem result_eq (x0 x1 : S64x8x65536x1.Idx → EReal) :
    val_main_v17 (F := Ideal) x0 x1 = fun _ => Bce.loss (Bce.entry x0) (Bce.entry x1) := by
  funext i
  rw [val_main_v17_apply, val_main_v16_apply, val_main_cst_4_apply, val_main_cst_5_apply, sum_idx2]
  simp only [Ideal.hostDivf_def, Ideal.ofBits_def, row_apply]
  rfl

end Cert.ReferenceIdeal.RefValue

end
-- ==== Proof.LibFiniteReal.lean ====
/-
  One element of an "every entry is finite" test, read on the extended reals.

  The test compares the absolute value `max x (-x)` with the f32 pattern of `+∞`, strictly. That pattern denotes the
  top element; the absolute value of `-∞` is `+∞`; so the test passes exactly at the reals. Also: the rank-0 shape
  has a single index (what reading a reduction over all axes at "its one result" needs).
-/
import Idealize.ShloMosaic.PureOps.Ideal.Laws

noncomputable section

namespace Cert.Lib.FiniteReal

open Idealize.ShloMosaic

/-- The f32 pattern `0x7F800000` denotes `+∞`. -/
theorem ofBits_inf_f32 : Ideal.ofBits .f32 0x7F800000#32 = ⊤ := by simp [Ideal.ofBits, Ideal.ieee]

/-- An extended real whose absolute value is strictly below the pattern of `+∞` is a real. -/
theorem real_of_abs_lt_inf (x : EReal)
    (h : Ideal.cmp .olt (max x (-x)) (Ideal.ofBits .f32 0x7F800000#32) = 1#1) : ∃ r : ℝ, x = (r : EReal) := by
  rw [ofBits_inf_f32] at h
  induction x using EReal.rec with
  | bot => exact absurd h (by simp [Ideal.cmp])
  | coe r => exact ⟨r, rfl⟩
  | top => exact absurd h (by simp [Ideal.cmp])

/-- Conversely every real passes the test. -/
theorem abs_lt_inf_of_real (r : ℝ) :
    Ideal.cmp .olt (max (r : EReal) (-(r : EReal))) (Ideal.ofBits .f32 0x7F800000#32) = 1#1 := by
  rw [ofBits_inf_f32]
  have h : max (r : EReal) (-(r : EReal)) < ⊤ := max_lt (EReal.coe_lt_top r) (by rw [← EReal.coe_neg]; exact EReal.coe_lt_top _)
  simp [Ideal.cmp, h]

/-- The rank-0 shape has exactly one index. -/
theorem subsingleton_idx0 : Subsingleton (⟨0, ![]⟩ : Shape).Idx := ⟨fun _ _ => funext fun d => d.elim0⟩

end Cert.Lib.FiniteReal

end
-- ==== Proof.Finite.lean ====
/-
  What the precondition says of the two argument arrays: every entry is a real number.

  The precondition is the conjunction of two "all entries have absolute value below +∞" tests, each a reduction by
  `and` over all four axes from the constant one. Where the conjunction is one, both reductions are one, so every
  entry of each array passes its test, and an extended real that passes it is a real.
-/
import proofs.«158866_j23536420782514_2_alg».proof.Pre_finite_inputs
import proofs.«158866_j23536420782514_2_alg».proof.Proof.LibFiniteReal
import Idealize.ShloMosaic.Lib.ReduceAll
import Idealize.ShloMosaic.Lib.ValueIdx

noncomputable section

namespace Cert.Pre_finite_inputs.Finite

open Cert.Pre_finite_inputs Idealize.ShloMosaic Idealize.ShloMosaic.ValueIdx

/-- The result of a reduction over all axes has one index. -/
instance : Subsingleton S_.Idx := Cert.Lib.FiniteReal.subsingleton_idx0

variable [Facts]

/-- Under the precondition every entry of both arrays is a real. -/
theorem finite_of_pre (x0 x1 : S64x8x65536x1.Idx → EReal)
    (h : fn (F := Ideal) x0 x1 = fun _ => 1#1) :
    (∀ i, ∃ r : ℝ, x0 i = (r : EReal)) ∧ (∀ i, ∃ r : ℝ, x1 i = (r : EReal)) := by
  have h0 := congrFun h ix0
  dsimp only [fn] at h0
  obtain ⟨ha, hb⟩ := IntOp.andi_eq_one.mp h0
  constructor
  · intro i
    have := Host.reduce_andi_all _ _ _ _ _ ha i
    exact Cert.Lib.FiniteReal.real_of_abs_lt_inf (x0 i) this
  · intro i
    have := Host.reduce_andi_all _ _ _ _ _ hb i
    exact Cert.Lib.FiniteReal.real_of_abs_lt_inf (x1 i) this

end Cert.Pre_finite_inputs.Finite

end
-- ==== Proof.lean ====
/-
  Mean binary cross-entropy of `pred`, `true` : f32[64, 8, 65536, 1] with the logarithms clamped at -100:
  `loss = (1/64) · Σ_{b,c} (1/65536) · Σ_h -(t·a + (1 - t)·b)`, `a = max(-100, log p)`, `b = max(-100, log(1 - p))`.

  The kernel computes it on the arguments reshaped to [512, 65536], sixteen rows per grid point: each row's sum of
  `0 - (b + t·(a - b))`, times `2^(-16)`, into a [512, 1] column which the host then totals and divides by 64. The
  reference sums `-(t·a + (1 - t)·b)` over the last axis of the [64, 8, 65536] reshapes, divides by 65536, totals
  over (b, c) and divides by 64. On the extended reals the two agree when every input is a real number:
  the clamped logarithms of a real are reals, so the two arrangements of one term are a polynomial identity over ℝ
  (Proof/Bce.lean); `2^(-16)` is exactly `1/65536`; and row `8·b + c` of the kernel's matrices is row (b, c) of the
  reference's (Proof/KernelRun.lean, Proof/ReferenceLoss.lean). The precondition gives the reals (Proof/Finite.lean).

  The three frames: the kernel programs' are the generated frame certificates; the reference has no kernel and its
  frame is its generated run with the result dropped. No rewrite was applied in idealizing the kernel, so there is
  nothing to preserve.
-/
import proofs.«158866_j23536420782514_2_alg».proof.Defs
import proofs.«158866_j23536420782514_2_alg».proof.Proof.Gen.Kernel
import proofs.«158866_j23536420782514_2_alg».proof.Proof.Gen.Kernel.Frame
import proofs.«158866_j23536420782514_2_alg».proof.Proof.Gen.KernelIdeal
import proofs.«158866_j23536420782514_2_alg».proof.Proof.Gen.KernelIdeal.Frame
import proofs.«158866_j23536420782514_2_alg».proof.Proof.Gen.ReferenceIdeal
import proofs.«158866_j23536420782514_2_alg».proof.Proof.Gen.Pre_finite_inputs
import proofs.«158866_j23536420782514_2_alg».proof.Proof.Gen.ReferenceIdeal.Run
import proofs.«158866_j23536420782514_2_alg».proof.Proof.Gen.ReferenceIdeal.Read
import proofs.«158866_j23536420782514_2_alg».proof.Proof.KernelRun
import proofs.«158866_j23536420782514_2_alg».proof.Proof.ReferenceLoss
import proofs.«158866_j23536420782514_2_alg».proof.Proof.Finite

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the loss of the (agreeing) arguments' entries as their one result entry. -/
theorem algebraic : Cert.algebraic_KernelIdeal_ReferenceIdeal := by
  intro m ρ m' ρ' hpre hagree
  have hf := fun c => Cert.Pre_finite_inputs.Finite.finite_of_pre _ _ (hpre c)
  refine ⟨_, Cert.KernelIdeal.RunValue.run m ρ hf, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
